-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S32x512 : Shape := ⟨2, ![32, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S32x2048x512 .f32) (main_arg1 : FVec F S32x512 .f32) (main_arg2 : FVec F S512x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32x2048x512 : Shape := ⟨3, ![32, 2048, 512]⟩
abbrev S32x512 : Shape := ⟨2, ![32, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S32x1x512 : Shape := ⟨3, ![32, 1, 512]⟩
abbrev S32x2048x1 : Shape := ⟨3, ![32, 2048, 1]⟩
abbrev S1x2048x512 : Shape := ⟨3, ![1, 2048, 512]⟩
abbrev S1x1x512 : Shape := ⟨3, ![1, 1, 512]⟩
abbrev S1x2048x1 : Shape := ⟨3, ![1, 2048, 1]⟩
abbrev S2048x512 : Shape := ⟨2, ![2048, 512]⟩
abbrev S1x512 : Shape := ⟨2, ![1, 512]⟩
abbrev S2048x1 : Shape := ⟨2, ![2048, 1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S32x2048x512, .f32⟩
  | .hbm, ⟨1, _⟩ => ⟨S32x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S32x1x512, .f32⟩
  | .hbm, ⟨9, _⟩ => ⟨S32x1x512, .f32⟩
  | .hbm, ⟨10, _⟩ => ⟨S32x2048x1, .f32⟩
  | .hbm, ⟨11, _⟩ => ⟨S32x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1x512, .f32⟩
  | .local _ .vmem, ⟨3, _⟩ => ⟨S1x1x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512x1, .f32⟩
  | .local _ .vmem, ⟨9, _⟩ => ⟨S1, .f32⟩
  | .local _ .vmem, ⟨10, _⟩ => ⟨S1x1x512, .f32⟩
  | .local _ .vmem, ⟨11, _⟩ => ⟨S1x1x512, .f32⟩
  | .local _ .vmem, ⟨12, _⟩ => ⟨S1x2048x1, .f32⟩
  | .local _ .vmem, ⟨13, _⟩ => ⟨S1x2048x1, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32x512_S32x1x512 : S32x512.ShapeCasts S32x1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  inb_S512x1_S512x1_0_0 : ∀ a, (![0, 0] : Fin 2 → Nat) a + S512x1.size a ≤ S512x1.size a
  h_S512x1 : 0 < S512x1.numel
  inb_S1_S1_0 : ∀ a, (![0] : Fin 1 → Nat) a + S1.size a ≤ S1.size a
  h_S1 : 0 < S1.numel
  bitsLt_bf16_f32 : FTy.bits .bf16 < FTy.bits .f32
  shapeCasts_S512_S1x512 : S512.ShapeCasts S1x512
  broadcasts_S1x512_S2048x512 : S1x512.Broadcasts S2048x512
  shapeCasts_S1_S1x1 : S1.ShapeCasts S1x1
  broadcasts_S1x1_S2048x1 : S1x1.Broadcasts S2048x1
  reduces_S2048x1_S1 : S2048x1.Reduces [0] S1
  broadcasts_S2048x1_S2048x512 : S2048x1.Broadcasts S2048x512
  reduces_S2048x512_S512 : S2048x512.Reduces [0] S512
  shapeCasts_S1x512_S1x1x512 : S1x512.ShapeCasts S1x1x512
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  shapeCasts_S32x1x512_S32x512 : S32x1x512.ShapeCasts S32x512
  dot_S2048x512_S512x512_S2048x512_1_0_0_1_n_n_wf : DotDims.WF S2048x512 S512x512 S2048x512 [1] [0] [0] [1] [] []
  dot_S1x512_S512x512_S1x512_1_0_0_1_n_n_wf : DotDims.WF S1x512 S512x512 S1x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x2048x512.size a
  hwx0_0 : ∀ i : grid0.Coords, EltTy.bits .f32 = 32 ∨ (Rect.block (s := S32x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S32x1x512.size a
  hwx0_1 : ∀ i : grid0.Coords, EltTy.bits .f32 = 32 ∨ (Rect.block (s := S32x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S32x1x512.size a
  hwx0_8 : ∀ i : grid0.Coords, EltTy.bits .f32 = 32 ∨ (Rect.block (s := S32x1x512) S1x1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2048x1.size a ≤ S32x2048x1.size a
  hwx0_9 : ∀ i : grid0.Coords, EltTy.bits .f32 = 32 ∨ (Rect.block (s := S32x2048x1) S1x2048x1.size (cc0_transform_9 i) (hinb0_9 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_0) S1x1x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_1) S1x2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S32x512 : Shape := ⟨2, ![32, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1x512 : Shape := ⟨3, ![1, 1, 512]⟩
abbrev S1x512 : Shape := ⟨2, ![1, 512]⟩
abbrev S32x1x512 : Shape := ⟨3, ![32, 1, 512]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S32x2048x512, .f32⟩
  | .hbm, ⟨9, _⟩ => ⟨S1x1x512, .f32⟩
  | .hbm, ⟨10, _⟩ => ⟨S32x2048x512, .f32⟩
  | .hbm, ⟨11, _⟩ => ⟨S32x2048x512, .f32⟩
  | .hbm, ⟨12, _⟩ => ⟨S32x512, .f32⟩
  | .hbm, ⟨13, _⟩ => ⟨S1x512, .f32⟩
  | .hbm, ⟨14, _⟩ => ⟨S32x512, .f32⟩
  | .hbm, ⟨15, _⟩ => ⟨S32x512, .f32⟩
  | .hbm, ⟨16, _⟩ => ⟨S32x1x512, .f32⟩
  | .hbm, ⟨17, _⟩ => ⟨S32x2048x512, .f32⟩
  | .hbm, ⟨18, _⟩ => ⟨S32x2048x512, .f32⟩
  | .hbm, ⟨19, _⟩ => ⟨S32x2048x512, .f32⟩
  | .hbm, ⟨20, _⟩ => ⟨S32x2048x1, .f32⟩
  | .hbm, ⟨21, _⟩ => ⟨S1x1x1, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x1x1, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S_, .f32⟩
  | .hbm, ⟨34, _⟩ => ⟨S32x1, .f32⟩
  | .hbm, ⟨35, _⟩ => ⟨S32x1x1, .f32⟩
  | .hbm, ⟨36, _⟩ => ⟨S32x2048x1, .f32⟩
  | .hbm, ⟨37, _⟩ => ⟨S32x2048x1, .f32⟩
  | .hbm, ⟨38, _⟩ => ⟨S32x2048x512, .f32⟩
  | .hbm, ⟨39, _⟩ => ⟨S32x2048x512, .f32⟩
  | .hbm, ⟨40, _⟩ => ⟨S_, .f32⟩
  | .hbm, ⟨41, _⟩ => ⟨S32x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x2048x512_0_1_2 : S1x1x512.BroadcastsInDim S32x2048x512 (![0, 1, 2] : Fin 3 → Fin S32x2048x512.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S32x512_S32x1x512_0_2 : S32x512.BroadcastsInDim S32x1x512 (![0, 2] : Fin 2 → Fin S32x1x512.rank)
  bcast_S32x1x512_S32x2048x512_0_1_2 : S32x1x512.BroadcastsInDim S32x2048x512 (![0, 1, 2] : Fin 3 → Fin S32x2048x512.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x512_0_1_2 : S32x2048x1.BroadcastsInDim S32x2048x512 (![0, 1, 2] : Fin 3 → Fin S32x2048x512.rank)
  reducesTo_S32x2048x512_S32x512_d1 : S32x2048x512.ReducesTo [1] S32x512
  dot_S32x2048x512_S512x512_S32x2048x512_2_0_01_1_n_n_wf : DotDims.WF S32x2048x512 S512x512 S32x2048x512 [2] [0] [0, 1] [1] [] []
  dot_S32x512_S512x512_S32x512_1_0_0_1_n_n_wf : DotDims.WF S32x512 S512x512 S32x512 [1] [0] [0] [1] [] []
  dot_S32x2048x512_S512x1_S32x2048x1_2_0_01_1_n_n_wf : DotDims.WF S32x2048x512 S512x1 S32x2048x1 [2] [0] [0, 1] [1] [] []

variable [Facts₀]

def dot_S32x2048x512_S512x512_S32x2048x512_2_0_01_1_n_n : DotDims S32x2048x512 S512x512 S32x2048x512 where
  lhsContracting := [2]
  rhsContracting := [0]
  lhsNonContracting := [0, 1]
  rhsNonContracting := [1]
  lhsBatch := []
  rhsBatch := []
  wf := dot_S32x2048x512_S512x512_S32x2048x512_2_0_01_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x2048x512_S512x1_S32x2048x1_2_0_01_1_n_n : DotDims S32x2048x512 S512x1 S32x2048x1 where
  lhsContracting := [2]
  rhsContracting := [0]
  lhsNonContracting := [0, 1]
  rhsNonContracting := [1]
  lhsBatch := []
  rhsBatch := []
  wf := dot_S32x2048x512_S512x1_S32x2048x1_2_0_01_1_n_n_wf

class Facts : Prop extends Facts₀ where

variable [Facts]
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibColumnSum.lean ====
/-
  The sum down the rows of a matrix, read at a column (a general lemma file: it imports only the library and is
  generic in the extents).

  A reduction of an [a, b] array along its first axis leaves a vector of length b; at column j it is the plain finite sum
  over the rows r of the entry (r, j), with every index spelt by its coordinates.
-/
import Idealize.ShloMosaic.Lib.ValueIdx
import Idealize.ShloMosaic.PureOps.Ideal.Laws

open scoped BigOperators

namespace Cert.LibColumnSum

open Idealize.ShloMosaic Idealize.ShloMosaic.ValueIdx

/-- Over [a, b] reduced along its rows, the index above column j with coordinate r is (r, j). -/
theorem lift_ab_first {a b : ℕ} (h : Shape.Reduces ⟨2, ![a, b]⟩ [0] ⟨1, ![b]⟩) (j : Fin b) (r : Fin a) :
    h.lift (ix1 j) r = ix2 r j := by
  funext x
  match x with
  | ⟨0, _⟩ => exact Fin.ext rfl
  | ⟨1, _⟩ => exact Fin.ext rfl

/-- The sum down the rows of an [a, b] array of extended reals, at column j. -/
theorem sum_ab_first {a b : ℕ} (src : FVec Ideal ⟨2, ![a, b]⟩ .f32)
    (h : Shape.Reduces ⟨2, ![a, b]⟩ [0] ⟨1, ![b]⟩) (hacc : (0x00000000#32 : BitVec 32) = 0x00000000#32) (j : Fin b) :
    multiReduction (s := ⟨2, ![a, b]⟩) .add ([0] : List (Fin 2)) ⟨1, ![b]⟩ src 0x00000000#32 h (.inl rfl) hacc (ix1 j)
      = ∑ r : Fin a, src (ix2 r j) :=
  (Ideal.multiReduction_add_single src 0x00000000#32 h (.inl rfl) hacc (ix1 j)).trans
    (Finset.sum_congr rfl fun r _ => congrArg src (lift_ab_first h j r))

end Cert.LibColumnSum
-- ==== Proof.LibColumnMax.lean ====
/-
  The maximum down the rows of a matrix, read at a column (a general lemma file: it imports only the library and is
  generic in the extents).

  A maximum-reduction of an [a, b] array along its first axis leaves a vector of length b; at column j it is the fold of
  max, started from the value of the word of −∞, over the rows r of the entry (r, j), every index spelt by its
  coordinates.
-/
import Idealize.ShloMosaic.Lib.ValueIdx
import Idealize.ShloMosaic.PureOps.Ideal.Laws

namespace Cert.LibColumnMax

open Idealize.ShloMosaic Idealize.ShloMosaic.ValueIdx

/-- Over [a, b] reduced along its rows, the index above column j with coordinate r is (r, j). -/
theorem lift_ab_first {a b : ℕ} (h : Shape.Reduces ⟨2, ![a, b]⟩ [0] ⟨1, ![b]⟩) (j : Fin b) (r : Fin a) :
    h.lift (ix1 j) r = ix2 r j := by
  funext x
  match x with
  | ⟨0, _⟩ => exact Fin.ext rfl
  | ⟨1, _⟩ => exact Fin.ext rfl

/-- The maximum down the rows of an [a, b] array of extended reals, at column j. -/
theorem max_ab_first {a b : ℕ} (src : FVec Ideal ⟨2, ![a, b]⟩ .f32)
    (h : Shape.Reduces ⟨2, ![a, b]⟩ [0] ⟨1, ![b]⟩) (hacc : (0xFF800000#32 : BitVec 32) = 0xFF800000#32) (j : Fin b) :
    multiReduction (s := ⟨2, ![a, b]⟩) .maximumf ([0] : List (Fin 2)) ⟨1, ![b]⟩ src 0xFF800000#32 h (.inl rfl) hacc (ix1 j)
      = (Finset.univ : Finset (Fin a)).fold max (Ideal.ofBits .f32 0xFF800000#32) (fun r => src (ix2 r j)) :=
  (Ideal.multiReduction_maximumf_single src 0xFF800000#32 h (.inl rfl) hacc (ix1 j)).trans
    (Finset.fold_congr fun r _ => congrArg src (lift_ab_first h j r))

end Cert.LibColumnMax
-- ==== Proof.LibSoftmaxColumn.lean ====
/-
  The softmax of a column and the sum it weights, at the ideal values (a general lemma file: it imports only the library and
  this directory's column lemmas, and is generic in the extents).

  For a family v of T extended reals, its softmax is  t ↦ exp (v t − M) / ∑ s, exp (v s − M)  with M the fold of max over
  the family started from −∞.  A vector unit computes it on a [T, 1] column by reducing down the rows: the maximum (kept
  as [1], viewed [1, 1], broadcast back to [T, 1]), the difference, the exponential, the sum of the exponentials
  (likewise kept, viewed and broadcast) and the quotient.  Read at a row that chain is the softmax of the column's
  entries (`softmax_column_apply`).  A [T, 1] column of weights broadcast over D columns, multiplied entry by entry with a
  [T, D] array and summed down the rows is, at column d, the weighted sum  ∑ t, w t · x (t, d)  (`weighted_sum_apply`).
  No sum is regrouped and nothing needs to be finite.
-/
import proofs.«170894_j31619549233446_2_alg».proof.Proof.LibColumn
import proofs.«170894_j31619549233446_2_alg».proof.Proof.LibColumnSum
import proofs.«170894_j31619549233446_2_alg».proof.Proof.LibColumnMax
import Idealize.ShloMosaic.Lib.ValueLayout

noncomputable section

open scoped BigOperators

namespace Cert.LibSoftmaxColumn

open Idealize.ShloMosaic Idealize.ShloMosaic.ValueIdx

/-- The extended real the single-precision word of −∞ denotes. -/
abbrev negInf : EReal := Ideal.ofBits .f32 0xFF800000#32

/-- It is the least extended real: the larger of it and anything is the other. -/
theorem max_negInf (y : EReal) : max negInf y = y := by
  simp [negInf, Ideal.ofBits, Ideal.ieee]

/-- The largest member of a family, as a fold of max from −∞. -/
def top {T : ℕ} (v : Fin T → EReal) : EReal := (Finset.univ : Finset (Fin T)).fold max negInf v

/-- The exponential of a member's distance below the largest. -/
def num {T : ℕ} (v : Fin T → EReal) (t : Fin T) : EReal := Ideal.exp (v t - top v)

/-- The sum of those exponentials. -/
def den {T : ℕ} (v : Fin T → EReal) : EReal := ∑ t : Fin T, num v t

/-- The softmax of a family. -/
def softmax {T : ℕ} (v : Fin T → EReal) (t : Fin T) : EReal := Ideal.div (num v t) (den v)

/-- A [1] array viewed [1, 1] and broadcast down T rows reads, at any (r, z), its one entry. -/
theorem keep_apply {T : ℕ} (s : FVec Ideal ⟨1, ![1]⟩ .f32)
    (hc : (⟨1, ![1]⟩ : Shape).ShapeCasts ⟨2, ![1, 1]⟩) (hb : (⟨2, ![1, 1]⟩ : Shape).Broadcasts ⟨2, ![T, 1]⟩)
    (r : Fin T) (z : Fin 1) :
    broadcastTo ⟨2, ![T, 1]⟩ (shapeCast ⟨2, ![1, 1]⟩ s hc) hb (ix2 r z) = s (ix1 (0 : Fin 1)) := by
  obtain rfl : z = 0 := Subsingleton.elim _ _
  rw [broadcastTo_1b_ab_apply, shapeCast_a_1a_apply]

/-- The column less its maximum, exponentiated, read at row r. -/
theorem num_column_apply {T : ℕ} (v : FVec Ideal ⟨2, ![T, 1]⟩ .f32)
    (hr : Shape.Reduces ⟨2, ![T, 1]⟩ [0] ⟨1, ![1]⟩)
    (hc : (⟨1, ![1]⟩ : Shape).ShapeCasts ⟨2, ![1, 1]⟩) (hb : (⟨2, ![1, 1]⟩ : Shape).Broadcasts ⟨2, ![T, 1]⟩)
    (hm : (0xFF800000#32 : BitVec 32) = 0xFF800000#32) (r : Fin T) (z : Fin 1) :
    exp (subf v (broadcastTo ⟨2, ![T, 1]⟩ (shapeCast ⟨2, ![1, 1]⟩
        (multiReduction (s := ⟨2, ![T, 1]⟩) .maximumf ([0] : List (Fin 2)) ⟨1, ![1]⟩ v 0xFF800000#32 hr (.inl rfl) hm) hc) hb)) (ix2 r z)
      = num (fun t => v (ix2 t (0 : Fin 1))) r := by
  obtain rfl : z = 0 := Subsingleton.elim _ _
  show Ideal.exp (v (ix2 r 0) - broadcastTo ⟨2, ![T, 1]⟩ (shapeCast ⟨2, ![1, 1]⟩
        (multiReduction (s := ⟨2, ![T, 1]⟩) .maximumf ([0] : List (Fin 2)) ⟨1, ![1]⟩ v 0xFF800000#32 hr (.inl rfl) hm) hc) hb (ix2 r 0)) = _
  rw [keep_apply, Cert.LibColumnMax.max_ab_first v hr hm (0 : Fin 1)]
  rfl

/-- The kernel's softmax chain on a [T, 1] column, read at row r: the softmax of the column's entries. -/
theorem softmax_column_apply {T : ℕ} (v : FVec Ideal ⟨2, ![T, 1]⟩ .f32)
    (hr : Shape.Reduces ⟨2, ![T, 1]⟩ [0] ⟨1, ![1]⟩)
    (hc : (⟨1, ![1]⟩ : Shape).ShapeCasts ⟨2, ![1, 1]⟩) (hb : (⟨2, ![1, 1]⟩ : Shape).Broadcasts ⟨2, ![T, 1]⟩)
    (hm : (0xFF800000#32 : BitVec 32) = 0xFF800000#32) (hz : (0x00000000#32 : BitVec 32) = 0x00000000#32)
    (r : Fin T) (z : Fin 1) :
    divf
        (exp (subf v (broadcastTo ⟨2, ![T, 1]⟩ (shapeCast ⟨2, ![1, 1]⟩
          (multiReduction (s := ⟨2, ![T, 1]⟩) .maximumf ([0] : List (Fin 2)) ⟨1, ![1]⟩ v 0xFF800000#32 hr (.inl rfl) hm) hc) hb)))
        (broadcastTo ⟨2, ![T, 1]⟩ (shapeCast ⟨2, ![1, 1]⟩
          (multiReduction (s := ⟨2, ![T, 1]⟩) .add ([0] : List (Fin 2)) ⟨1, ![1]⟩
            (exp (subf v (broadcastTo ⟨2, ![T, 1]⟩ (shapeCast ⟨2, ![1, 1]⟩
              (multiReduction (s := ⟨2, ![T, 1]⟩) .maximumf ([0] : List (Fin 2)) ⟨1, ![1]⟩ v 0xFF800000#32 hr (.inl rfl) hm) hc) hb)))
            0x00000000#32 hr (.inl rfl) hz) hc) hb)
        (ix2 r z)
      = softmax (fun t => v (ix2 t (0 : Fin 1))) r := by
  show Ideal.div _ _ = _
  rw [num_column_apply v hr hc hb hm r z, keep_apply, Cert.LibColumnSum.sum_ab_first _ hr hz (0 : Fin 1)]
  unfold softmax den
  refine congrArg (Ideal.div _) (Finset.sum_congr rfl fun t _ => ?_)
  exact num_column_apply v hr hc hb hm t 0

/-- A [T, 1] column of weights broadcast over D columns, times a [T, D] array, summed down the rows, at column d. -/
theorem weighted_sum_apply {T D : ℕ} (w : FVec Ideal ⟨2, ![T, 1]⟩ .f32) (x : FVec Ideal ⟨2, ![T, D]⟩ .f32)
    (hb : (⟨2, ![T, 1]⟩ : Shape).Broadcasts ⟨2, ![T, D]⟩) (hr : Shape.Reduces ⟨2, ![T, D]⟩ [0] ⟨1, ![D]⟩)
    (hz : (0x00000000#32 : BitVec 32) = 0x00000000#32) (d : Fin D) :
    multiReduction (s := ⟨2, ![T, D]⟩) .add ([0] : List (Fin 2)) ⟨1, ![D]⟩ (mulf (broadcastTo ⟨2, ![T, D]⟩ w hb) x)
        0x00000000#32 hr (.inl rfl) hz (ix1 d)
      = ∑ t : Fin T, w (ix2 t (0 : Fin 1)) * x (ix2 t d) := by
  rw [Cert.LibColumnSum.sum_ab_first _ hr hz d]
  refine Finset.sum_congr rfl fun t _ => ?_
  show broadcastTo ⟨2, ![T, D]⟩ w hb (ix2 t d) * x (ix2 t d) = _
  rw [ColumnLayout.broadcastTo_a1_ab_apply]

end Cert.LibSoftmaxColumn

end
-- ==== Proof.AttnSpec.lean ====
/-
  Additive attention over one sequence, on the extended reals: the specification both programs are compared with.

  A sequence of T feature rows f t (each of D numbers) and one state row h (of H numbers) are scored against each other:
  each feature row and the state are sent through dense layers into U units,
      feat t u = (∑ k, f t k · Wk k u) + Wb u,        state u = (∑ k, h k · Uk k u) + Ub u,
  the score of row t in unit u is  tanh (feat t u + state u),  and its logit the scores' combination
      logit t = (∑ u, score t u · Vk u) + Vb.
  The attention weights are the softmax of the logits over the sequence, and the context is the features averaged with
  those weights,  context d = ∑ t, weight t · f t d.  Every sum is a finite sum of extended reals in the order of its index;
  nothing here needs the entries to be finite.
-/
import proofs.«170894_j31619549233446_2_alg».proof.Proof.LibSoftmaxColumn

noncomputable section

open scoped BigOperators

namespace Cert.AdditiveAttention

open Idealize.ShloMosaic Cert.LibSoftmaxColumn

/-- One sequence's data and the layer's parameters, by coordinates. -/
structure Layer (T D H U : ℕ) where
  /-- the feature rows -/
  f : Fin T → Fin D → EReal
  /-- the state row -/
  h : Fin H → EReal
  /-- the features' weights and bias -/
  Wk : Fin D → Fin U → EReal
  Wb : Fin U → EReal
  /-- the state's weights and bias -/
  Uk : Fin H → Fin U → EReal
  Ub : Fin U → EReal
  /-- the scores' weights and bias -/
  Vk : Fin U → EReal
  Vb : EReal

namespace Layer

variable {T D H U : ℕ} (L : Layer T D H U)

/-- A feature row through its dense layer. -/
def feat (t : Fin T) (u : Fin U) : EReal := (∑ k : Fin D, L.f t k * L.Wk k u) + L.Wb u

/-- The state row through its dense layer. -/
def state (u : Fin U) : EReal := (∑ k : Fin H, L.h k * L.Uk k u) + L.Ub u

/-- The score of row t in unit u. -/
def score (t : Fin T) (u : Fin U) : EReal := Ideal.tanh (L.feat t u + L.state u)

/-- The logit of row t. -/
def logit (t : Fin T) : EReal := (∑ u : Fin U, L.score t u * L.Vk u) + L.Vb

/-- The attention weight of row t: the softmax of the logits over the sequence. -/
def weight (t : Fin T) : EReal := softmax L.logit t

/-- The context: the feature rows averaged with the attention weights. -/
def context (d : Fin D) : EReal := ∑ t : Fin T, L.weight t * L.f t d

end Layer

end Cert.AdditiveAttention

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«170894_j31619549233446_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«170894_j31619549233446_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.KernelBody.lean ====
/-
  What the kernel's body computes from one grid point's blocks, entry by entry.

  At a grid point the body holds one sequence's features as a [1, 2048, 512] block, its state as a [1, 1, 512] block and
  the layer's parameters whole.  Its two stored values are read here at an index given by coordinates: the attention
  weights (a [2048, 1] column viewed [1, 2048, 1]) are the specification's weights of the layer those blocks spell, and
  the context (512 numbers viewed [1, 1, 512]) is its context.  Roundings to the narrower format on the way into the
  matrix products are the identity on the extended reals; each matrix product into a zero accumulator is the plain sum
  of products; the softmax down the column and the weighted sum down the rows are the column lemmas'.
-/
import proofs.«170894_j31619549233446_2_alg».proof.Proof.Gen.KernelIdeal.Skeleton
import proofs.«170894_j31619549233446_2_alg».proof.Proof.AttnSpec
import proofs.«170894_j31619549233446_2_alg».proof.Proof.LibBlockDot
import Idealize.ShloMosaic.Lib.ValueLayout

noncomputable section

open scoped BigOperators

namespace Cert.KernelIdeal.Body

open Cert.KernelIdeal Cert.KernelIdeal.Gen Idealize.ShloMosaic Idealize.ShloMosaic.ValueIdx
open Cert.AdditiveAttention Cert.LibSoftmaxColumn

/-- The layer one grid point's blocks spell. -/
def blockLayer (x0 : Vec Ideal S1x2048x512 .f32) (x1 : Vec Ideal S1x1x512 .f32) (x2 : Vec Ideal S512x512 .f32)
    (x3 : Vec Ideal S512 .f32) (x4 : Vec Ideal S512x512 .f32) (x5 : Vec Ideal S512 .f32) (x6 : Vec Ideal S512x1 .f32)
    (x7 : Vec Ideal S1 .f32) : Layer 2048 512 512 512 where
  f t k := x0 (ix3 (0 : Fin 1) t k)
  h k := x1 (ix3 (0 : Fin 1) (0 : Fin 1) k)
  Wk k u := x2 (ix2 k u)
  Wb u := x3 (ix1 u)
  Uk k u := x4 (ix2 k u)
  Ub u := x5 (ix1 u)
  Vk u := x6 (ix2 u (0 : Fin 1))
  Vb := x7 (ix1 (0 : Fin 1))

/-- The features' block viewed as a matrix, at (t, k). -/
theorem pay3_apply (x0 : Vec Ideal S1x2048x512 .f32) (t : Fin 2048) (k : Fin 512) :
    k0_pay3 x0 (ix2 t k) = x0 (ix3 (0 : Fin 1) t k) := by
  unfold k0_pay3
  exact shapeCast_1ab_ab_apply x0 _ t k

/-! ## The body's intermediate arrays -/

/-- The feature rows through their dense layer: [2048, 512]. -/
def featVec (x0 : Vec Ideal S1x2048x512 .f32) (x2 : Vec Ideal S512x512 .f32) (x3 : Vec Ideal S512 .f32) :
    FVec Ideal S2048x512 .f32 :=
  addf (matmul dot_S2048x512_S512x512_S2048x512_1_0_0_1_n_n none (truncf .bf16 (k0_pay3 x0) bitsLt_bf16_f32)
      (truncf .bf16 x2 bitsLt_bf16_f32) (constant S2048x512 .f32 0x00000000#32))
    (broadcastTo S2048x512 (shapeCast S1x512 x3 shapeCasts_S512_S1x512) broadcasts_S1x512_S2048x512)

/-- The state row through its dense layer: [1, 512]. -/
def stateVec (x1 : Vec Ideal S1x1x512 .f32) (x4 : Vec Ideal S512x512 .f32) (x5 : Vec Ideal S512 .f32) :
    FVec Ideal S1x512 .f32 :=
  addf (matmul dot_S1x512_S512x512_S1x512_1_0_0_1_n_n none
      (truncf .bf16 (shapeCast S1x512 x1 shapeCasts_S1x1x512_S1x512) bitsLt_bf16_f32)
      (truncf .bf16 x4 bitsLt_bf16_f32) (constant S1x512 .f32 0x00000000#32))
    (shapeCast S1x512 x5 shapeCasts_S512_S1x512)

/-- The scores: [2048, 512]. -/
def scoreVec (x0 : Vec Ideal S1x2048x512 .f32) (x1 : Vec Ideal S1x1x512 .f32) (x2 : Vec Ideal S512x512 .f32)
    (x3 : Vec Ideal S512 .f32) (x4 : Vec Ideal S512x512 .f32) (x5 : Vec Ideal S512 .f32) : FVec Ideal S2048x512 .f32 :=
  tanh (addf (featVec x0 x2 x3) (broadcastTo S2048x512 (stateVec x1 x4 x5) broadcasts_S1x512_S2048x512))

/-- The logits: a [2048, 1] column. -/
def logitVec (x0 : Vec Ideal S1x2048x512 .f32) (x1 : Vec Ideal S1x1x512 .f32) (x2 : Vec Ideal S512x512 .f32)
    (x3 : Vec Ideal S512 .f32) (x4 : Vec Ideal S512x512 .f32) (x5 : Vec Ideal S512 .f32) (x6 : Vec Ideal S512x1 .f32)
    (x7 : Vec Ideal S1 .f32) : FVec Ideal S2048x1 .f32 :=
  addf (matmul dot_S2048x512_S512x1_S2048x1_1_0_0_1_n_n none (truncf .bf16 (scoreVec x0 x1 x2 x3 x4 x5) bitsLt_bf16_f32)
      (truncf .bf16 x6 bitsLt_bf16_f32) (constant S2048x1 .f32 0x00000000#32))
    (broadcastTo S2048x1 (shapeCast S1x1 x7 shapeCasts_S1_S1x1) broadcasts_S1x1_S2048x1)

/-! ## Each read at an index -/

theorem featVec_apply (x0 : Vec Ideal S1x2048x512 .f32) (x2 : Vec Ideal S512x512 .f32) (x3 : Vec Ideal S512 .f32)
    (t : Fin 2048) (u : Fin 512) :
    featVec x0 x2 x3 (ix2 t u) = (∑ k : Fin 512, x0 (ix3 (0 : Fin 1) t k) * x2 (ix2 k u)) + x3 (ix1 u) := by
  show matmul (F := Ideal) (DotDims.plain 2048 512 512) none (truncf .bf16 (k0_pay3 x0) bitsLt_bf16_f32)
        (truncf .bf16 x2 bitsLt_bf16_f32) (constant ⟨2, ![2048, 512]⟩ .f32 0x00000000#32) (ix2 t u)
      + broadcastTo ⟨2, ![2048, 512]⟩ (shapeCast ⟨2, ![1, 512]⟩ x3 shapeCasts_S512_S1x512) broadcasts_S1x512_S2048x512 (ix2 t u) = _
  rw [Cert.BlockDot.kdot_apply, broadcastTo_1b_ab_apply, shapeCast_a_1a_apply]
  refine congrArg (· + x3 (ix1 u)) (Finset.sum_congr rfl fun k _ => ?_)
  show k0_pay3 x0 (ix2 t k) * x2 (ix2 k u) = _
  rw [pay3_apply]

theorem stateVec_apply (x1 : Vec Ideal S1x1x512 .f32) (x4 : Vec Ideal S512x512 .f32) (x5 : Vec Ideal S512 .f32)
    (z : Fin 1) (u : Fin 512) :
    stateVec x1 x4 x5 (ix2 z u) = (∑ k : Fin 512, x1 (ix3 (0 : Fin 1) (0 : Fin 1) k) * x4 (ix2 k u)) + x5 (ix1 u) := by
  obtain rfl : z = 0 := Subsingleton.elim _ _
  show matmul (F := Ideal) (DotDims.plain 1 512 512) none (truncf .bf16 (shapeCast ⟨2, ![1, 512]⟩ x1 shapeCasts_S1x1x512_S1x512) bitsLt_bf16_f32)
        (truncf .bf16 x4 bitsLt_bf16_f32) (constant ⟨2, ![1, 512]⟩ .f32 0x00000000#32) (ix2 (0 : Fin 1) u)
      + shapeCast ⟨2, ![1, 512]⟩ x5 shapeCasts_S512_S1x512 (ix2 (0 : Fin 1) u) = _
  rw [Cert.BlockDot.kdot_apply, shapeCast_a_1a_apply]
  refine congrArg (· + x5 (ix1 u)) (Finset.sum_congr rfl fun k _ => ?_)
  show shapeCast ⟨2, ![1, 512]⟩ x1 shapeCasts_S1x1x512_S1x512 (ix2 (0 : Fin 1) k) * x4 (ix2 k u) = _
  rw [shapeCast_1ab_ab_apply]

theorem scoreVec_apply (x0 : Vec Ideal S1x2048x512 .f32) (x1 : Vec Ideal S1x1x512 .f32) (x2 : Vec Ideal S512x512 .f32)
    (x3 : Vec Ideal S512 .f32) (x4 : Vec Ideal S512x512 .f32) (x5 : Vec Ideal S512 .f32) (x6 : Vec Ideal S512x1 .f32)
    (x7 : Vec Ideal S1 .f32) (t : Fin 2048) (u : Fin 512) :
    scoreVec x0 x1 x2 x3 x4 x5 (ix2 t u) = (blockLayer x0 x1 x2 x3 x4 x5 x6 x7).score t u := by
  show Ideal.tanh (featVec x0 x2 x3 (ix2 t u)
      + broadcastTo ⟨2, ![2048, 512]⟩ (stateVec x1 x4 x5) broadcasts_S1x512_S2048x512 (ix2 t u)) = _
  rw [broadcastTo_1b_ab_apply, featVec_apply, stateVec_apply]
  rfl

theorem logitVec_apply (x0 : Vec Ideal S1x2048x512 .f32) (x1 : Vec Ideal S1x1x512 .f32) (x2 : Vec Ideal S512x512 .f32)
    (x3 : Vec Ideal S512 .f32) (x4 : Vec Ideal S512x512 .f32) (x5 : Vec Ideal S512 .f32) (x6 : Vec Ideal S512x1 .f32)
    (x7 : Vec Ideal S1 .f32) (t : Fin 2048) (z : Fin 1) :
    logitVec x0 x1 x2 x3 x4 x5 x6 x7 (ix2 t z) = (blockLayer x0 x1 x2 x3 x4 x5 x6 x7).logit t := by
  obtain rfl : z = 0 := Subsingleton.elim _ _
  show matmul (F := Ideal) (DotDims.plain 2048 512 1) none (truncf .bf16 (scoreVec x0 x1 x2 x3 x4 x5) bitsLt_bf16_f32)
        (truncf .bf16 x6 bitsLt_bf16_f32) (constant ⟨2, ![2048, 1]⟩ .f32 0x00000000#32) (ix2 t (0 : Fin 1))
      + broadcastTo ⟨2, ![2048, 1]⟩ (shapeCast ⟨2, ![1, 1]⟩ x7 shapeCasts_S1_S1x1) broadcasts_S1x1_S2048x1 (ix2 t (0 : Fin 1)) = _
  rw [Cert.BlockDot.kdot_apply, broadcastTo_1b_ab_apply, shapeCast_a_1a_apply]
  refine congrArg (· + x7 (ix1 (0 : Fin 1))) (Finset.sum_congr rfl fun u _ => ?_)
  show scoreVec x0 x1 x2 x3 x4 x5 (ix2 t u) * x6 (ix2 u (0 : Fin 1)) = _
  rw [scoreVec_apply x0 x1 x2 x3 x4 x5 x6 x7]
  rfl

/-! ## The stored values -/

/-- The attention weights the body computes, at row r: the layer's weight of row r. -/
theorem pay4_apply (x0 : Vec Ideal S1x2048x512 .f32) (x1 : Vec Ideal S1x1x512 .f32) (x2 : Vec Ideal S512x512 .f32)
    (x3 : Vec Ideal S512 .f32) (x4 : Vec Ideal S512x512 .f32) (x5 : Vec Ideal S512 .f32) (x6 : Vec Ideal S512x1 .f32)
    (x7 : Vec Ideal S1 .f32) (r : Fin 2048) (z : Fin 1) :
    k0_pay4 x0 x1 x2 x3 x4 x5 x6 x7 (ix2 r z) = (blockLayer x0 x1 x2 x3 x4 x5 x6 x7).weight r :=
  (softmax_column_apply (logitVec x0 x1 x2 x3 x4 x5 x6 x7) reduces_S2048x1_S1 shapeCasts_S1_S1x1 broadcasts_S1x1_S2048x1
      rfl rfl r z).trans
    (congrArg (fun v => softmax v r) (funext fun t => logitVec_apply x0 x1 x2 x3 x4 x5 x6 x7 t 0))

/-- The weights as stored, viewed [1, 2048, 1]. -/
theorem pay2_apply (v38 : FVec Ideal S2048x1 .f32) (u : Fin 1) (r : Fin 2048) (z : Fin 1) :
    k0_pay2 v38 (ix3 u r z) = v38 (ix2 r z) := by
  unfold k0_pay2
  exact shapeCast_ab_1ab_apply v38 _ u r z

/-- The context as stored, viewed [1, 1, 512]: the weighted sum of the feature rows. -/
theorem pay1_apply (v1 : FVec Ideal S2048x512 .f32) (v38 : FVec Ideal S2048x1 .f32) (u0 u1 : Fin 1) (d : Fin 512) :
    k0_pay1 v1 v38 (ix3 u0 u1 d) = ∑ t : Fin 2048, v38 (ix2 t (0 : Fin 1)) * v1 (ix2 t d) := by
  unfold k0_pay1
  refine (shapeCast_ab_1ab_apply _ _ u0 u1 d).trans ?_
  refine (shapeCast_a_1a_apply _ _ u1 d).trans ?_
  exact weighted_sum_apply v38 v1 broadcasts_S2048x1_S2048x512 reduces_S2048x512_S512 rfl d

/-- The body's context from the blocks: the layer's context. -/
theorem context_apply (x0 : Vec Ideal S1x2048x512 .f32) (x1 : Vec Ideal S1x1x512 .f32) (x2 : Vec Ideal S512x512 .f32)
    (x3 : Vec Ideal S512 .f32) (x4 : Vec Ideal S512x512 .f32) (x5 : Vec Ideal S512 .f32) (x6 : Vec Ideal S512x1 .f32)
    (x7 : Vec Ideal S1 .f32) (u0 u1 : Fin 1) (d : Fin 512) :
    k0_pay1 (k0_pay3 x0) (k0_pay4 x0 x1 x2 x3 x4 x5 x6 x7) (ix3 u0 u1 d)
      = (blockLayer x0 x1 x2 x3 x4 x5 x6 x7).context d := by
  rw [pay1_apply]
  refine Finset.sum_congr rfl fun t _ => ?_
  rw [pay4_apply, pay3_apply]
  rfl

/-- The body's weights from the blocks, as stored: the layer's weights. -/
theorem weight_apply (x0 : Vec Ideal S1x2048x512 .f32) (x1 : Vec Ideal S1x1x512 .f32) (x2 : Vec Ideal S512x512 .f32)
    (x3 : Vec Ideal S512 .f32) (x4 : Vec Ideal S512x512 .f32) (x5 : Vec Ideal S512 .f32) (x6 : Vec Ideal S512x1 .f32)
    (x7 : Vec Ideal S1 .f32) (u : Fin 1) (r : Fin 2048) (z : Fin 1) :
    k0_pay2 (k0_pay4 x0 x1 x2 x3 x4 x5 x6 x7) (ix3 u r z) = (blockLayer x0 x1 x2 x3 x4 x5 x6 x7).weight r := by
  rw [pay2_apply, pay4_apply]

end Cert.KernelIdeal.Body

end
-- ==== Proof.AttnArrays.lean ====
/-
  The two results as whole arrays of the arguments.

  The arguments hold 32 sequences: features [32, 2048, 512], states [32, 512], and one set of layer parameters.  Sequence b
  with the parameters is a layer of the specification; the attention weights [32, 2048, 1] hold at (b, t, ·) that layer's
  weight of row t, and the context [32, 512] holds at (b, d) its context at d (also spelt with a unit axis, [32, 1, 512]).
-/
import proofs.«170894_j31619549233446_2_alg».proof.Proof.AttnSpec
import Idealize.ShloMosaic.Lib.ValueIdx

noncomputable section

namespace Cert.AdditiveAttention

open Idealize.ShloMosaic Idealize.ShloMosaic.ValueIdx

/-- Sequence b of the argument arrays, with the parameters, as a layer. -/
def seqLayer (a0 : (⟨3, ![32, 2048, 512]⟩ : Shape).Idx → EReal) (a1 : (⟨2, ![32, 512]⟩ : Shape).Idx → EReal)
    (a2 : (⟨2, ![512, 512]⟩ : Shape).Idx → EReal) (a3 : (⟨1, ![512]⟩ : Shape).Idx → EReal)
    (a4 : (⟨2, ![512, 512]⟩ : Shape).Idx → EReal) (a5 : (⟨1, ![512]⟩ : Shape).Idx → EReal)
    (a6 : (⟨2, ![512, 1]⟩ : Shape).Idx → EReal) (a7 : (⟨1, ![1]⟩ : Shape).Idx → EReal) (b : Fin 32) :
    Layer 2048 512 512 512 where
  f t k := a0 (ix3 b t k)
  h k := a1 (ix2 b k)
  Wk k u := a2 (ix2 k u)
  Wb u := a3 (ix1 u)
  Uk k u := a4 (ix2 k u)
  Ub u := a5 (ix1 u)
  Vk u := a6 (ix2 u (0 : Fin 1))
  Vb := a7 (ix1 (0 : Fin 1))

/-- The attention weights of every sequence: [32, 2048, 1]. -/
def weightsArr (a0 : (⟨3, ![32, 2048, 512]⟩ : Shape).Idx → EReal) (a1 : (⟨2, ![32, 512]⟩ : Shape).Idx → EReal)
    (a2 : (⟨2, ![512, 512]⟩ : Shape).Idx → EReal) (a3 : (⟨1, ![512]⟩ : Shape).Idx → EReal)
    (a4 : (⟨2, ![512, 512]⟩ : Shape).Idx → EReal) (a5 : (⟨1, ![512]⟩ : Shape).Idx → EReal)
    (a6 : (⟨2, ![512, 1]⟩ : Shape).Idx → EReal) (a7 : (⟨1, ![1]⟩ : Shape).Idx → EReal) :
    (⟨3, ![32, 2048, 1]⟩ : Shape).Idx → EReal :=
  fun i => (seqLayer a0 a1 a2 a3 a4 a5 a6 a7 (i 0)).weight (i 1)

/-- The context of every sequence: [32, 512]. -/
def contextArr (a0 : (⟨3, ![32, 2048, 512]⟩ : Shape).Idx → EReal) (a1 : (⟨2, ![32, 512]⟩ : Shape).Idx → EReal)
    (a2 : (⟨2, ![512, 512]⟩ : Shape).Idx → EReal) (a3 : (⟨1, ![512]⟩ : Shape).Idx → EReal)
    (a4 : (⟨2, ![512, 512]⟩ : Shape).Idx → EReal) (a5 : (⟨1, ![512]⟩ : Shape).Idx → EReal)
    (a6 : (⟨2, ![512, 1]⟩ : Shape).Idx → EReal) (a7 : (⟨1, ![1]⟩ : Shape).Idx → EReal) :
    (⟨2, ![32, 512]⟩ : Shape).Idx → EReal :=
  fun i => (seqLayer a0 a1 a2 a3 a4 a5 a6 a7 (i 0)).context (i 1)

/-- The same with a unit axis kept between the sequence and the column: [32, 1, 512]. -/
def contextArr3 (a0 : (⟨3, ![32, 2048, 512]⟩ : Shape).Idx → EReal) (a1 : (⟨2, ![32, 512]⟩ : Shape).Idx → EReal)
    (a2 : (⟨2, ![512, 512]⟩ : Shape).Idx → EReal) (a3 : (⟨1, ![512]⟩ : Shape).Idx → EReal)
    (a4 : (⟨2, ![512, 512]⟩ : Shape).Idx → EReal) (a5 : (⟨1, ![512]⟩ : Shape).Idx → EReal)
    (a6 : (⟨2, ![512, 1]⟩ : Shape).Idx → EReal) (a7 : (⟨1, ![1]⟩ : Shape).Idx → EReal) :
    (⟨3, ![32, 1, 512]⟩ : Shape).Idx → EReal :=
  fun i => (seqLayer a0 a1 a2 a3 a4 a5 a6 a7 (i 0)).context (i 2)

/-- Two layers with the same data and parameters are one layer. -/
theorem Layer.ext' {T D H U : ℕ} {L L' : Layer T D H U} (hf : L.f = L'.f) (hh : L.h = L'.h) (h1 : L.Wk = L'.Wk)
    (h2 : L.Wb = L'.Wb) (h3 : L.Uk = L'.Uk) (h4 : L.Ub = L'.Ub) (h5 : L.Vk = L'.Vk) (h6 : L.Vb = L'.Vb) : L = L' := by
  cases L; cases L'
  dsimp only at hf hh h1 h2 h3 h4 h5 h6
  subst hf hh h1 h2 h3 h4 h5 h6
  rfl

section
variable (a0 : (⟨3, ![32, 2048, 512]⟩ : Shape).Idx → EReal) (a1 : (⟨2, ![32, 512]⟩ : Shape).Idx → EReal)
    (a2 : (⟨2, ![512, 512]⟩ : Shape).Idx → EReal) (a3 : (⟨1, ![512]⟩ : Shape).Idx → EReal)
    (a4 : (⟨2, ![512, 512]⟩ : Shape).Idx → EReal) (a5 : (⟨1, ![512]⟩ : Shape).Idx → EReal)
    (a6 : (⟨2, ![512, 1]⟩ : Shape).Idx → EReal) (a7 : (⟨1, ![1]⟩ : Shape).Idx → EReal)

/-- The weights at an index whose first two coordinates have the values of b and r. -/
theorem weightsArr_apply (i : (⟨3, ![32, 2048, 1]⟩ : Shape).Idx) (b : Fin 32) (r : Fin 2048)
    (hb : (i 0).val = b.val) (hr : (i 1).val = r.val) :
    weightsArr a0 a1 a2 a3 a4 a5 a6 a7 i = (seqLayer a0 a1 a2 a3 a4 a5 a6 a7 b).weight r := by
  have e0 : i 0 = b := Fin.ext hb
  have e1 : i 1 = r := Fin.ext hr
  show (seqLayer a0 a1 a2 a3 a4 a5 a6 a7 (i 0)).weight (i 1) = _
  rw [e0, e1]

/-- The context at an index whose coordinates have the values of b and d. -/
theorem contextArr_apply (i : (⟨2, ![32, 512]⟩ : Shape).Idx) (b : Fin 32) (d : Fin 512)
    (hb : (i 0).val = b.val) (hd : (i 1).val = d.val) :
    contextArr a0 a1 a2 a3 a4 a5 a6 a7 i = (seqLayer a0 a1 a2 a3 a4 a5 a6 a7 b).context d := by
  have e0 : i 0 = b := Fin.ext hb
  have e1 : i 1 = d := Fin.ext hd
  show (seqLayer a0 a1 a2 a3 a4 a5 a6 a7 (i 0)).context (i 1) = _
  rw [e0, e1]

/-- The same with the unit axis kept. -/
theorem contextArr3_apply (i : (⟨3, ![32, 1, 512]⟩ : Shape).Idx) (b : Fin 32) (d : Fin 512)
    (hb : (i 0).val = b.val) (hd : (i 2).val = d.val) :
    contextArr3 a0 a1 a2 a3 a4 a5 a6 a7 i = (seqLayer a0 a1 a2 a3 a4 a5 a6 a7 b).context d := by
  have e0 : i 0 = b := Fin.ext hb
  have e2 : i 2 = d := Fin.ext hd
  show (seqLayer a0 a1 a2 a3 a4 a5 a6 a7 (i 0)).context (i 2) = _
  rw [e0, e2]

end

end Cert.AdditiveAttention

end
-- ==== Proof.KernelValue.lean ====
/-
  What the kernel's program leaves in its two results, as whole arrays of the arguments.

  The grid has one point per sequence.  At point t every input window's block is sequence t's part of its array (the
  features' block (t, ·, ·), the state's block (t, ·, ·) of the states viewed [32, 1, 512]; the parameters whole), so the
  blocks spell the layer of sequence t, and what the body stores — read through the output windows' blocks (t, ·, ·) — is
  that layer's weights and context.  The 32 blocks of each output tile its array, so the arrays end as the
  specification's whole arrays; the program's last line views the context [32, 1, 512] as [32, 512].
-/
import proofs.«170894_j31619549233446_2_alg».proof.Proof.Gen.KernelIdeal.Frame
import proofs.«170894_j31619549233446_2_alg».proof.Proof.KernelBody
import proofs.«170894_j31619549233446_2_alg».proof.Proof.AttnArrays
import Idealize.ShloMosaic.Lib.Pipeline.Value
import Idealize.ShloMosaic.Lib.StableHlo.Run

noncomputable section

namespace Cert.KernelIdeal.KValue

open Cert.KernelIdeal Cert.KernelIdeal.Gen Cert.KernelIdeal.Body Idealize.ShloMosaic Idealize.ShloMosaic.TcCoe Idealize.SL.Sem
open Idealize.ShloMosaic.ValueIdx Cert.AdditiveAttention
open Idealize.ShloMosaic.Pipeline (Dat)

variable (m : (ℓ : Loc nD τ sig) → Buf (Elt Ideal) ℓ) (ρ : Dev nD → PrngReg)

/-! ## The grid and the windows' index maps -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A grid point is a sequence's number. -/
theorem point_lt (t : Fin cfg0.N) : t.val < 32 := by
  have h := t.isLt
  have hN : cfg0.N = 32 := N_0
  omega

/-- The sequence a grid point works on. -/
def seqOf (t : Fin cfg0.N) : Fin 32 := ⟨t.val, point_lt t⟩

/-- The printed index maps, decided over the 32 points: the features', the state's and both outputs' blocks are number t
    along the sequences' axis and 0 elsewhere; the parameters' blocks are the whole arrays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) = t.val ∧ win0_8.index t (1 : Fin 3) = 0 ∧ win0_8.index t (2 : Fin 3) = 0
    ∧ win0_9.index t (0 : Fin 3) = t.val ∧ win0_9.index t (1 : Fin 3) = 0 ∧ win0_9.index t (2 : Fin 3) = 0 :=
  (by decide +kernel : ∀ t : Fin grid0.N, _)

/-! ## The input blocks at a point, read off the arrays -/

theorem read0 (c : Dev nD) (t : Fin cfg0.N) (r : Fin 2048) (k : Fin 512) :
    iblk m c 0 t (ix3 (0 : Fin 1) r k) = m ((c : Thread nD τ).loc main_arg0) (ix3 (seqOf t) r k) := by
  rw [← V_main_arg0 m c]
  show V m c main_arg0 (((cfg0.win 0).blk t).view.emb (ix3 (0 : Fin 1) r k)) = V m c main_arg0 (ix3 (seqOf t) r k)
  refine congrArg (V m c main_arg0) (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 512 + 1 * k.val = k.val; omega

/-- The states as the region finds them: the program's first line views [32, 512] as [32, 1, 512]. -/
theorem V_main_v0 (c : Dev nD) :
    (V m c main_v0 : S32x1x512.Idx → EReal)
      = shapeCast S32x1x512 (m ((c : Thread nD τ).loc main_arg1)) shapeCasts_S32x512_S32x1x512 := by
  show StableHlo.after hostOps0 (fun b => m (c, b)) (Proc.devRef .tc main_v0) = _
  after_results
  rfl

theorem read1 (c : Dev nD) (t : Fin cfg0.N) (k : Fin 512) :
    iblk m c 1 t (ix3 (0 : Fin 1) (0 : Fin 1) k) = m ((c : Thread nD τ).loc main_arg1) (ix2 (seqOf t) k) := by
  show V m c main_v0 (((cfg0.win 1).blk t).view.emb (ix3 (0 : Fin 1) (0 : Fin 1) k)) = _
  have e : ((cfg0.win 1).blk t).view.emb (ix3 (0 : Fin 1) (0 : Fin 1) k) = ix3 (seqOf t) (0 : Fin 1) k :=
    funext fun a => Fin.ext (by
      obtain ⟨w00, w01, w02, w10, w11, w12, w20, w21, w30, w40, w41, w50, w60, w61, w70, w80, w81, w82, w90, w91, w92⟩ := idx_facts t
      match a with
      | ⟨0, _⟩ => show win0_1.index t (0 : Fin 3) * 1 + 1 * 0 = t.val; omega
      | ⟨1, _⟩ => show win0_1.index t (1 : Fin 3) * 1 + 1 * 0 = 0; omega
      | ⟨2, _⟩ => show win0_1.index t (2 : Fin 3) * 512 + 1 * k.val = k.val; omega)
  rw [e, V_main_v0 m c]
  refine shapeCast_apply (m ((c : Thread nD τ).loc main_arg1)) shapeCasts_S32x512_S32x1x512 (ix3 (seqOf t) (0 : Fin 1) k) (ix2 (seqOf t) k) ?_
  show ((⟨2, ![32, 512]⟩ : Shape).rowMajor (ix2 (seqOf t) k)).val = ((⟨3, ![32, 1, 512]⟩ : Shape).rowMajor (ix3 (seqOf t) (0 : Fin 1) k)).val
  rw [Shape.rowMajor_val_two, Shape.rowMajor_val_three]
  show (seqOf t).val * 512 + k.val = ((seqOf t).val * 1 + 0) * 512 + k.val
  omega

theorem read2 (c : Dev nD) (t : Fin cfg0.N) (k u : Fin 512) :
    iblk m c 2 t (ix2 k u) = m ((c : Thread nD τ).loc main_arg2) (ix2 k u) := by
  rw [← V_main_arg2 m c]
  show V m c main_arg2 (((cfg0.win 2).blk t).view.emb (ix2 k u)) = V m c main_arg2 (ix2 k u)
  refine congrArg (V m c main_arg2) (funext fun a => Fin.ext ?_)
  obtain ⟨w00, w01, w02, w10, w11, w12, w20, w21, w30, w40, w41, w50, w60, w61, w70, w80, w81, w82, w90, w91, w92⟩ := idx_facts t
  match a with
  | ⟨0, _⟩ => show win0_2.index t (0 : Fin 2) * 512 + 1 * k.val = k.val; omega
  | ⟨1, _⟩ => show win0_2.index t (1 : Fin 2) * 512 + 1 * u.val = u.val; omega

theorem read3 (c : Dev nD) (t : Fin cfg0.N) (u : Fin 512) :
    iblk m c 3 t (ix1 u) = m ((c : Thread nD τ).loc main_arg3) (ix1 u) := by
  rw [← V_main_arg3 m c]
  show V m c main_arg3 (((cfg0.win 3).blk t).view.emb (ix1 u)) = V m c main_arg3 (ix1 u)
  refine congrArg (V m c main_arg3) (funext fun a => Fin.ext ?_)
  obtain ⟨w00, w01, w02, w10, w11, w12, w20, w21, w30, w40, w41, w50, w60, w61, w70, w80, w81, w82, w90, w91, w92⟩ := idx_facts t
  match a with
  | ⟨0, _⟩ => show win0_3.index t (0 : Fin 1) * 512 + 1 * u.val = u.val; omega

theorem read4 (c : Dev nD) (t : Fin cfg0.N) (k u : Fin 512) :
    iblk m c 4 t (ix2 k u) = m ((c : Thread nD τ).loc main_arg4) (ix2 k u) := by
  rw [← V_main_arg4 m c]
  show V m c main_arg4 (((cfg0.win 4).blk t).view.emb (ix2 k u)) = V m c main_arg4 (ix2 k u)
  refine congrArg (V m c main_arg4) (funext fun a => Fin.ext ?_)
  obtain ⟨w00, w01, w02, w10, w11, w12, w20, w21, w30, w40, w41, w50, w60, w61, w70, w80, w81, w82, w90, w91, w92⟩ := idx_facts t
  match a with
  | ⟨0, _⟩ => show win0_4.index t (0 : Fin 2) * 512 + 1 * k.val = k.val; omega
  | ⟨1, _⟩ => show win0_4.index t (1 : Fin 2) * 512 + 1 * u.val = u.val; omega

theorem read5 (c : Dev nD) (t : Fin cfg0.N) (u : Fin 512) :
    iblk m c 5 t (ix1 u) = m ((c : Thread nD τ).loc main_arg5) (ix1 u) := by
  rw [← V_main_arg5 m c]
  show V m c main_arg5 (((cfg0.win 5).blk t).view.emb (ix1 u)) = V m c main_arg5 (ix1 u)
  refine congrArg (V m c main_arg5) (funext fun a => Fin.ext ?_)
  obtain ⟨w00, w01, w02, w10, w11, w12, w20, w21, w30, w40, w41, w50, w60, w61, w70, w80, w81, w82, w90, w91, w92⟩ := idx_facts t
  match a with
  | ⟨0, _⟩ => show win0_5.index t (0 : Fin 1) * 512 + 1 * u.val = u.val; omega

theorem read6 (c : Dev nD) (t : Fin cfg0.N) (u : Fin 512) :
    iblk m c 6 t (ix2 u (0 : Fin 1)) = m ((c : Thread nD τ).loc main_arg6) (ix2 u (0 : Fin 1)) := by
  rw [← V_main_arg6 m c]
  show V m c main_arg6 (((cfg0.win 6).blk t).view.emb (ix2 u (0 : Fin 1))) = V m c main_arg6 (ix2 u (0 : Fin 1))
  refine congrArg (V m c main_arg6) (funext fun a => Fin.ext ?_)
  obtain ⟨w00, w01, w02, w10, w11, w12, w20, w21, w30, w40, w41, w50, w60, w61, w70, w80, w81, w82, w90, w91, w92⟩ := idx_facts t
  match a with
  | ⟨0, _⟩ => show win0_6.index t (0 : Fin 2) * 512 + 1 * u.val = u.val; omega
  | ⟨1, _⟩ => show win0_6.index t (1 : Fin 2) * 1 + 1 * 0 = 0; omega

theorem read7 (c : Dev nD) (t : Fin cfg0.N) :
    iblk m c 7 t (ix1 (0 : Fin 1)) = m ((c : Thread nD τ).loc main_arg7) (ix1 (0 : Fin 1)) := by
  rw [← V_main_arg7 m c]
  show V m c main_arg7 (((cfg0.win 7).blk t).view.emb (ix1 (0 : Fin 1))) = V m c main_arg7 (ix1 (0 : Fin 1))
  refine congrArg (V m c main_arg7) (funext fun a => Fin.ext ?_)
  obtain ⟨w00, w01, w02, w10, w11, w12, w20, w21, w30, w40, w41, w50, w60, w61, w70, w80, w81, w82, w90, w91, w92⟩ := idx_facts t
  match a with
  | ⟨0, _⟩ => show win0_7.index t (0 : Fin 1) * 1 + 1 * 0 = 0; omega

/-- The blocks at point t spell the layer of sequence t of the arguments as launched. -/
theorem layer_eq (c : Dev nD) (t : Fin cfg0.N) :
    blockLayer (iblk m c 0 t) (iblk m c 1 t) (iblk m c 2 t) (iblk m c 3 t) (iblk m c 4 t) (iblk m c 5 t) (iblk m c 6 t) (iblk m c 7 t)
      = seqLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (seqOf t) :=
  Layer.ext' (funext fun r => funext fun k => read0 m c t r k) (funext fun k => read1 m c t k)
    (funext fun k => funext fun u => read2 m c t k u) (funext fun u => read3 m c t u)
    (funext fun k => funext fun u => read4 m c t k u) (funext fun u => read5 m c t u)
    (funext fun u => read6 m c t u) (read7 m c t)

/-! ## What the body leaves in the output windows' buffers -/

theorem out9_eq (x0 : Vec Ideal S1x2048x512 .f32) (x1 : Vec Ideal S1x1x512 .f32) (x2 : Vec Ideal S512x512 .f32)
    (x3 : Vec Ideal S512 .f32) (x4 : Vec Ideal S512x512 .f32) (x5 : Vec Ideal S512 .f32) (x6 : Vec Ideal S512x1 .f32)
    (x7 : Vec Ideal S1 .f32) :
    out0_9 x0 x1 x2 x3 x4 x5 x6 x7 = k0_pay2 (k0_pay4 x0 x1 x2 x3 x4 x5 x6 x7) := by
  unfold out0_9
  rw [View.canon_unit_zero hz3]
  simp only [View.ld_unit_zero (S := S1x2048x512) hz3, View.ld_unit_zero (S := S1x1x512) hz3,
    View.ld_unit_zero (S := S512x512) hz2, View.ld_unit_zero (S := S512) hz1, View.ld_unit_zero (S := S512x1) hz2,
    View.ld_unit_zero (S := S1) hz1]

theorem out8_eq (x0 : Vec Ideal S1x2048x512 .f32) (x1 : Vec Ideal S1x1x512 .f32) (x2 : Vec Ideal S512x512 .f32)
    (x3 : Vec Ideal S512 .f32) (x4 : Vec Ideal S512x512 .f32) (x5 : Vec Ideal S512 .f32) (x6 : Vec Ideal S512x1 .f32)
    (x7 : Vec Ideal S1 .f32) :
    out0_8 x0 x1 x2 x3 x4 x5 x6 x7 = k0_pay1 (k0_pay3 x0) (k0_pay4 x0 x1 x2 x3 x4 x5 x6 x7) := by
  unfold out0_8
  rw [View.canon_unit_zero hz3]
  simp only [View.ld_unit_zero (S := S1x2048x512) hz3, View.ld_unit_zero (S := S1x1x512) hz3,
    View.ld_unit_zero (S := S512x512) hz2, View.ld_unit_zero (S := S512) hz1, View.ld_unit_zero (S := S512x1) hz2,
    View.ld_unit_zero (S := S1) hz1]

/-! ## The results as whole arrays of the arguments as launched -/

/-- The specification's weights of core c's argument arrays. -/
def weightsOf (c : Dev nD) : S32x2048x1.Idx → EReal := weightsArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
/-- The specification's context of core c's argument arrays, with the unit axis kept. -/
def context3Of (c : Dev nD) : S32x1x512.Idx → EReal := contextArr3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
/-- The specification's context of core c's argument arrays. -/
def contextOf (c : Dev nD) : S32x512.Idx → EReal := contextArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## The weights' window -/

/-- What point t writes back to the weights' array is block t of the specification's weights. -/
theorem flushed9_eq (c : Dev nD) (t : Fin cfg0.N) :
    (dats m 0 c).flushed 9 t = ((cfg0.win 9).blk t).view.read (Elt Ideal) (weightsOf m c) := by
  show (cfg0.win 9).cut (grid0.coords t) ((dats m 0 c).after 9 t) = _
  rw [after0_9]
  funext y
  obtain ⟨u, r, z, rfl⟩ : ∃ (u : Fin 1) (r : Fin 2048) (z : Fin 1), y = ix3 u r z := ⟨y 0, y 1, y 2, eq_ix3 y⟩
  show out0_9 (iblk m c 0 t) (iblk m c 1 t) (iblk m c 2 t) (iblk m c 3 t) (iblk m c 4 t) (iblk m c 5 t) (iblk m c 6 t) (iblk m c 7 t) (ix3 u r z)
      = weightsOf m c (((cfg0.win 9).blk t).view.emb (ix3 u r z))
  refine (congrFun (out9_eq (iblk m c 0 t) (iblk m c 1 t) (iblk m c 2 t) (iblk m c 3 t) (iblk m c 4 t) (iblk m c 5 t) (iblk m c 6 t) (iblk m c 7 t)) (ix3 u r z)).trans ?_
  refine (weight_apply (iblk m c 0 t) (iblk m c 1 t) (iblk m c 2 t) (iblk m c 3 t) (iblk m c 4 t) (iblk m c 5 t) (iblk m c 6 t) (iblk m c 7 t) u r z).trans ?_
  rw [layer_eq m c t]
  obtain ⟨w00, w01, w02, w10, w11, w12, w20, w21, w30, w40, w41, w50, w60, w61, w70, w80, w81, w82, w90, w91, w92⟩ := idx_facts t
  have hu : u.val = 0 := by omega
  exact (weightsArr_apply _ _ _ _ _ _ _ _ _ (seqOf t) r
    (by show win0_9.index t (0 : Fin 3) * 1 + 1 * u.val = t.val; omega)
    (by show win0_9.index t (1 : Fin 3) * 2048 + 1 * r.val = r.val; omega)).symm

/-- An index of the weights' array is in point t's block iff each coordinate is in the block's range on its axis. -/
theorem mem_blk9 (t : Fin cfg0.N) (i : S32x2048x1.Idx) :
    i ∈ ((cfg0.win 9).blk t).view.set ↔ ∀ a : Fin 3, win0_9.index t a * S1x2048x1.size a ≤ (i a).val
      ∧ (i a).val < win0_9.index t a * S1x2048x1.size a + S1x2048x1.size a := by
  show i ∈ ((View.whole main_v1_1).slice (win0_9.rect t)).set ↔ _
  rw [View.set_slice_whole, Rect.mem_set_unit]
  exact Iff.rfl

/-- The 32 blocks tile the weights' array: index (b, ·, ·) is in point b's block. -/
theorem cover9 (i : S32x2048x1.Idx) :
    ∃ t : Fin cfg0.N, (cfg0.win 9).flush t = true ∧ i ∈ ((cfg0.win 9).blk t).view.set := by
  have hi0 : (i 0).val < 32 := (i 0).isLt
  have hi1 : (i 1).val < 2048 := (i 1).isLt
  have hi2 : (i 2).val < 1 := (i 2).isLt
  have hN : cfg0.N = 32 := N_0
  obtain ⟨t, ht⟩ : ∃ t : Fin cfg0.N, t.val = (i 0).val := ⟨⟨(i 0).val, by omega⟩, rfl⟩
  obtain ⟨w00, w01, w02, w10, w11, w12, w20, w21, w30, w40, w41, w50, w60, w61, w70, w80, w81, w82, w90, w91, w92⟩ := idx_facts t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 2048 ≤ (i 1).val ∧ (i 1).val < win0_9.index t (1 : Fin 3) * 2048 + 2048; omega
  | ⟨2, _⟩ => show win0_9.index t (2 : Fin 3) * 1 ≤ (i 2).val ∧ (i 2).val < win0_9.index t (2 : Fin 3) * 1 + 1; omega

/-- The weights' array after the run. -/
theorem final9 (c : Dev nD) : (dats m 0 c).arrAt 9 cfg0.N = weightsOf m c :=
  (dats m 0 c).arrAt_eq_of_cover 9 (weightsOf m c) (fun t _ => flushed9_eq m c t) cover9

/-! ## The context's window -/

/-- What point t writes back to the context's array is block t of the specification's context. -/
theorem flushed8_eq (c : Dev nD) (t : Fin cfg0.N) :
    (dats m 0 c).flushed 8 t = ((cfg0.win 8).blk t).view.read (Elt Ideal) (context3Of m c) := by
  show (cfg0.win 8).cut (grid0.coords t) ((dats m 0 c).after 8 t) = _
  rw [after0_8]
  funext y
  obtain ⟨u0, u1, d, rfl⟩ : ∃ (u0 : Fin 1) (u1 : Fin 1) (d : Fin 512), y = ix3 u0 u1 d := ⟨y 0, y 1, y 2, eq_ix3 y⟩
  show out0_8 (iblk m c 0 t) (iblk m c 1 t) (iblk m c 2 t) (iblk m c 3 t) (iblk m c 4 t) (iblk m c 5 t) (iblk m c 6 t) (iblk m c 7 t) (ix3 u0 u1 d)
      = context3Of m c (((cfg0.win 8).blk t).view.emb (ix3 u0 u1 d))
  refine (congrFun (out8_eq (iblk m c 0 t) (iblk m c 1 t) (iblk m c 2 t) (iblk m c 3 t) (iblk m c 4 t) (iblk m c 5 t) (iblk m c 6 t) (iblk m c 7 t)) (ix3 u0 u1 d)).trans ?_
  refine (context_apply (iblk m c 0 t) (iblk m c 1 t) (iblk m c 2 t) (iblk m c 3 t) (iblk m c 4 t) (iblk m c 5 t) (iblk m c 6 t) (iblk m c 7 t) u0 u1 d).trans ?_
  rw [layer_eq m c t]
  obtain ⟨w00, w01, w02, w10, w11, w12, w20, w21, w30, w40, w41, w50, w60, w61, w70, w80, w81, w82, w90, w91, w92⟩ := idx_facts t
  have hu0 : u0.val = 0 := by omega
  exact (contextArr3_apply _ _ _ _ _ _ _ _ _ (seqOf t) d
    (by show win0_8.index t (0 : Fin 3) * 1 + 1 * u0.val = t.val; omega)
    (by show win0_8.index t (2 : Fin 3) * 512 + 1 * d.val = d.val; omega)).symm

theorem mem_blk8 (t : Fin cfg0.N) (i : S32x1x512.Idx) :
    i ∈ ((cfg0.win 8).blk t).view.set ↔ ∀ a : Fin 3, win0_8.index t a * S1x1x512.size a ≤ (i a).val
      ∧ (i a).val < win0_8.index t a * S1x1x512.size a + S1x1x512.size a := by
  show i ∈ ((View.whole main_v1_0).slice (win0_8.rect t)).set ↔ _
  rw [View.set_slice_whole, Rect.mem_set_unit]
  exact Iff.rfl

theorem cover8 (i : S32x1x512.Idx) :
    ∃ t : Fin cfg0.N, (cfg0.win 8).flush t = true ∧ i ∈ ((cfg0.win 8).blk t).view.set := by
  have hi0 : (i 0).val < 32 := (i 0).isLt
  have hi1 : (i 1).val < 1 := (i 1).isLt
  have hi2 : (i 2).val < 512 := (i 2).isLt
  have hN : cfg0.N = 32 := N_0
  obtain ⟨t, ht⟩ : ∃ t : Fin cfg0.N, t.val = (i 0).val := ⟨⟨(i 0).val, by omega⟩, rfl⟩
  obtain ⟨w00, w01, w02, w10, w11, w12, w20, w21, w30, w40, w41, w50, w60, w61, w70, w80, w81, w82, w90, w91, w92⟩ := idx_facts t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1 ≤ (i 1).val ∧ (i 1).val < win0_8.index t (1 : Fin 3) * 1 + 1; omega
  | ⟨2, _⟩ => show win0_8.index t (2 : Fin 3) * 512 ≤ (i 2).val ∧ (i 2).val < win0_8.index t (2 : Fin 3) * 512 + 512; omega

/-- The context's array after the region. -/
theorem final8 (c : Dev nD) : (dats m 0 c).arrAt 8 cfg0.N = context3Of m c :=
  (dats m 0 c).arrAt_eq_of_cover 8 (context3Of m c) (fun t _ => flushed8_eq m c t) cover8

/-! ## The program's last line -/

/-- The program's result for the context: the context's array [32, 1, 512] viewed [32, 512]. -/
theorem tail_v2 (c : Dev nD) :
    Pipeline.afterTail₀ cfgs (dats m) 0 (V0 m) [hostOps1] c main_v2 = contextOf m c := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.tc.devRef main_v1_0) = context3Of m c :=
    (Pipeline.withArrays_arr spec0 launch0.win.arr_inj c _ _ 8).trans (final8 m c)
  funext i
  obtain ⟨b, d, rfl⟩ : ∃ (b : Fin 32) (d : Fin 512), i = ix2 b d := ⟨i 0, i 1, eq_ix2 i⟩
  show shapeCast S32x512 (Pipeline.withArrays (cfgs 0).spec c (V0 m c) (fun w => (dats m 0 c).arrAt w (cfgs 0).N)
      (Proc.tc.devRef main_v1_0)) shapeCasts_S32x1x512_S32x512 (ix2 b d) = _
  rw [e]
  refine (shapeCast_apply (context3Of m c) shapeCasts_S32x1x512_S32x512 (ix2 b d) (ix3 b (0 : Fin 1) d) ?_).trans ?_
  · show ((⟨3, ![32, 1, 512]⟩ : Shape).rowMajor (ix3 b (0 : Fin 1) d)).val = ((⟨2, ![32, 512]⟩ : Shape).rowMajor (ix2 b d)).val
    rw [Shape.rowMajor_val_three, Shape.rowMajor_val_two]
    show (b.val * 1 + 0) * 512 + d.val = b.val * 512 + d.val
    omega
  · exact (contextArr3_apply _ _ _ _ _ _ _ _ (ix3 b (0 : Fin 1) d) b d rfl rfl).trans
      (contextArr_apply _ _ _ _ _ _ _ _ (ix2 b d) b d rfl rfl).symm

/-! ## The run, read -/

/-- Every weakly fair execution of the program terminates with the context at the specification's context of the
    arguments, the weights at its weights, and the arguments unchanged. -/
theorem run : θ_run defs (onTc (τ := τ) (main (F := Ideal))) ⟨m, fun _ => 0, ρ⟩ fun r => ∀ c : Dev nD,
      r.2.mem ((c.tc : Thread nD τ).loc main_v2) = contextOf m c
      ∧ r.2.mem ((c.tc : Thread nD τ).loc main_v1_1) = weightsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨((h c).2 main_v2 (Pipeline.mem_restRefs_of main_v2 (by decide) (by decide))).trans (tail_v2 m c),
      ((h c).1 9).trans (final9 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.KValue

end
-- ==== Proof.RefRead.lean ====
/-
  The reference's two results are the specification's whole arrays.

  The reference computes every sequence at once on [32, 2048, ·] arrays.  Read at an index (b, t, ·) stage by stage — each
  matrix product as its sum over the contracted axis, each broadcast at the index it reads, the maximum over the sequence
  as a fold of max from −∞ (taking the larger of −∞ and that fold changes nothing), the sums over the sequence as finite
  sums started from zero — its weights are the layer of sequence b's weights and its context that layer's context.
-/
import proofs.«170894_j31619549233446_2_alg».proof.Proof.Gen.ReferenceIdeal.Read
import proofs.«170894_j31619549233446_2_alg».proof.Proof.AttnArrays
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.AdditiveAttention Cert.LibSoftmaxColumn

variable (a0 : (⟨S32x2048x512, .f32⟩ : BufTy).Contents (Elt Ideal)) (a1 : (⟨S32x512, .f32⟩ : BufTy).Contents (Elt Ideal))
  (a2 : (⟨S512x512, .f32⟩ : BufTy).Contents (Elt Ideal)) (a3 : (⟨S512, .f32⟩ : BufTy).Contents (Elt Ideal))
  (a4 : (⟨S512x512, .f32⟩ : BufTy).Contents (Elt Ideal)) (a5 : (⟨S512, .f32⟩ : BufTy).Contents (Elt Ideal))
  (a6 : (⟨S512x1, .f32⟩ : BufTy).Contents (Elt Ideal)) (a7 : (⟨S1, .f32⟩ : BufTy).Contents (Elt Ideal))

/-! ## The indices each stage reads, by coordinates -/

theorem lidx0 (b : Fin 32) (t : Fin 2048) (u k : Fin 512) : lidx_main_v0 (ix3 b t u) k = ix3 b t k :=
  funext fun a => Fin.ext (by match a with | ⟨0, _⟩ => rfl | ⟨1, _⟩ => rfl | ⟨2, _⟩ => rfl)
theorem ridx0 (b : Fin 32) (t : Fin 2048) (u k : Fin 512) : ridx_main_v0 (ix3 b t u) k = ix2 k u :=
  funext fun a => Fin.ext (by match a with | ⟨0, _⟩ => rfl | ⟨1, _⟩ => rfl)
theorem idx1_2 (b : Fin 32) (t : Fin 2048) (u : Fin 512) : idx_main_v1 (idx_main_v2 (ix3 b t u)) = ix1 u :=
  funext fun a => Fin.ext (by match a with | ⟨0, _⟩ => rfl)
theorem idx8_9 (b : Fin 32) (t : Fin 2048) (u : Fin 512) : idx_main_v8 (idx_main_v9 (ix3 b t u)) = ix2 b u :=
  funext fun a => Fin.ext (by match a with | ⟨0, _⟩ => rfl | ⟨1, _⟩ => rfl)
theorem lidx4 (b : Fin 32) (u k : Fin 512) : lidx_main_v4 (ix2 b u) k = ix2 b k :=
  funext fun a => Fin.ext (by match a with | ⟨0, _⟩ => rfl | ⟨1, _⟩ => rfl)
theorem ridx4 (b : Fin 32) (u k : Fin 512) : ridx_main_v4 (ix2 b u) k = ix2 k u :=
  funext fun a => Fin.ext (by match a with | ⟨0, _⟩ => rfl | ⟨1, _⟩ => rfl)
theorem idx5_6 (b : Fin 32) (u : Fin 512) : idx_main_v5 (idx_main_v6 (ix2 b u)) = ix1 u :=
  funext fun a => Fin.ext (by match a with | ⟨0, _⟩ => rfl)
theorem lidx12 (b : Fin 32) (t : Fin 2048) (z : Fin 1) (k : Fin 512) : lidx_main_v12 (ix3 b t z) k = ix3 b t k :=
  funext fun a => Fin.ext (by match a with | ⟨0, _⟩ => rfl | ⟨1, _⟩ => rfl | ⟨2, _⟩ => rfl)
theorem ridx12 (b : Fin 32) (t : Fin 2048) (z : Fin 1) (k : Fin 512) : ridx_main_v12 (ix3 b t z) k = ix2 k z :=
  funext fun a => Fin.ext (by match a with | ⟨0, _⟩ => rfl | ⟨1, _⟩ => rfl)
theorem idx13_14 (b : Fin 32) (t : Fin 2048) (z : Fin 1) : idx_main_v13 (idx_main_v14 (ix3 b t z)) = ix1 (0 : Fin 1) :=
  funext fun a => Fin.ext (by match a with | ⟨0, _⟩ => rfl)
theorem idx19_20 (b : Fin 32) (t : Fin 2048) (z : Fin 1) : idx_main_v19 (idx_main_v20 (ix3 b t z)) = ix2 b (0 : Fin 1) :=
  funext fun a => Fin.ext (by match a with | ⟨0, _⟩ => rfl | ⟨1, _⟩ => rfl)
theorem idx23 (b : Fin 32) (z : Fin 1) (k : Fin 2048) : idx_main_v23 (ix2 b z) k = ix3 b k z :=
  funext fun a => Fin.ext (by match a with | ⟨0, _⟩ => rfl | ⟨1, _⟩ => rfl | ⟨2, _⟩ => rfl)
theorem idx24_25 (b : Fin 32) (t : Fin 2048) (z : Fin 1) : idx_main_v24 (idx_main_v25 (ix3 b t z)) = ix2 b (0 : Fin 1) :=
  funext fun a => Fin.ext (by match a with | ⟨0, _⟩ => rfl | ⟨1, _⟩ => rfl)
theorem idx27 (b : Fin 32) (t : Fin 2048) (d : Fin 512) : idx_main_v27 (ix3 b t d) = ix3 b t (0 : Fin 1) :=
  funext fun a => Fin.ext (by match a with | ⟨0, _⟩ => rfl | ⟨1, _⟩ => rfl | ⟨2, _⟩ => rfl)
theorem idx29 (b : Fin 32) (d : Fin 512) (k : Fin 2048) : idx_main_v29 (ix2 b d) k = ix3 b k d :=
  funext fun a => Fin.ext (by match a with | ⟨0, _⟩ => rfl | ⟨1, _⟩ => rfl | ⟨2, _⟩ => rfl)

/-- Over [32, 2048, 1] reduced along the sequence, the index above (b, z) with coordinate k is (b, k, z). -/
theorem lift_seq (h : S32x2048x1.Reduces [1] S32x1) (b : Fin 32) (z : Fin 1) (k : Fin 2048) :
    h.lift (ix2 b z) k = ix3 b k z :=
  funext fun a => Fin.ext (by match a with | ⟨0, _⟩ => rfl | ⟨1, _⟩ => rfl | ⟨2, _⟩ => rfl)

/-! ## The stages, at an index -/

/-- The scores. -/
theorem score_at (b : Fin 32) (t : Fin 2048) (u : Fin 512) :
    val_main_v11 (F := Ideal) a0 a1 a2 a3 a4 a5 (ix3 b t u) = (seqLayer a0 a1 a2 a3 a4 a5 a6 a7 b).score t u := by
  rw [val_main_v11_apply, val_main_v10_apply, val_main_v3_apply, val_main_v0_apply, val_main_v2_apply, val_main_v1_apply,
    val_main_v9_apply, val_main_v8_apply, val_main_v7_apply, val_main_v4_apply, val_main_v6_apply, val_main_v5_apply]
  simp only [lidx0, ridx0, idx1_2, idx8_9, lidx4, ridx4, idx5_6]
  rfl

/-- The logits. -/
theorem logit_at (b : Fin 32) (t : Fin 2048) (z : Fin 1) :
    val_main_v15 (F := Ideal) a0 a1 a2 a3 a4 a5 a6 a7 (ix3 b t z) = (seqLayer a0 a1 a2 a3 a4 a5 a6 a7 b).logit t := by
  obtain rfl : z = 0 := Subsingleton.elim _ _
  rw [val_main_v15_apply, val_main_v12_apply, val_main_v14_apply, val_main_v13_apply]
  simp only [lidx12, ridx12, idx13_14, score_at a0 a1 a2 a3 a4 a5 a6 a7]
  rfl

/-- The largest logit of a sequence. -/
theorem top_at (b : Fin 32) (z : Fin 1) :
    val_main_v18 (F := Ideal) a0 a1 a2 a3 a4 a5 a6 a7 (ix2 b z) = top (seqLayer a0 a1 a2 a3 a4 a5 a6 a7 b).logit := by
  rw [val_main_v18_apply, val_main_v17_apply, val_main_cst_0_apply]
  show max negInf (val_main_v16 (F := Ideal) a0 a1 a2 a3 a4 a5 a6 a7 (ix2 b z)) = _
  rw [max_negInf]
  unfold val_main_v16
  have h : S32x2048x1.Reduces [1] S32x1 := by decide
  rw [Host.reduce_eq_fold_single FloatOps.maximumf _ _ reducesTo_S32x2048x1_S32x1_d1 h h_S_]
  unfold top
  refine Finset.fold_congr fun k _ => ?_
  show val_main_v15 (F := Ideal) a0 a1 a2 a3 a4 a5 a6 a7 (h.lift (ix2 b z) k) = _
  rw [lift_seq h b z k]
  exact logit_at a0 a1 a2 a3 a4 a5 a6 a7 b k z

/-- The exponentials. -/
theorem num_at (b : Fin 32) (t : Fin 2048) (z : Fin 1) :
    val_main_v22 (F := Ideal) a0 a1 a2 a3 a4 a5 a6 a7 (ix3 b t z) = num (seqLayer a0 a1 a2 a3 a4 a5 a6 a7 b).logit t := by
  rw [val_main_v22_apply, val_main_v21_apply, val_main_v20_apply, val_main_v19_apply, idx19_20, logit_at, top_at]
  rfl

/-- Their sum over the sequence. -/
theorem den_at (b : Fin 32) (z : Fin 1) :
    val_main_v23 (F := Ideal) a0 a1 a2 a3 a4 a5 a6 a7 (ix2 b z) = den (seqLayer a0 a1 a2 a3 a4 a5 a6 a7 b).logit := by
  rw [val_main_v23_apply, val_main_cst_1_apply]
  simp only [idx23, num_at a0 a1 a2 a3 a4 a5 a6 a7]
  show Ideal.ofBits .f32 0x00000000#32 + _ = _
  rw [Ideal.ofBits_zero_f32, zero_add]
  rfl

/-- The attention weights. -/
theorem weight_at (b : Fin 32) (t : Fin 2048) (z : Fin 1) :
    val_main_v26 (F := Ideal) a0 a1 a2 a3 a4 a5 a6 a7 (ix3 b t z) = (seqLayer a0 a1 a2 a3 a4 a5 a6 a7 b).weight t := by
  rw [val_main_v26_apply, val_main_v25_apply, val_main_v24_apply, idx24_25, num_at, den_at]
  rfl

/-- The context. -/
theorem context_at (b : Fin 32) (d : Fin 512) :
    val_main_v29 (F := Ideal) a0 a1 a2 a3 a4 a5 a6 a7 (ix2 b d) = (seqLayer a0 a1 a2 a3 a4 a5 a6 a7 b).context d := by
  rw [val_main_v29_apply, val_main_cst_2_apply]
  simp only [idx29, val_main_v28_apply, val_main_v27_apply, idx27, weight_at a0 a1 a2 a3 a4 a5 a6 a7]
  show Ideal.ofBits .f32 0x00000000#32 + _ = _
  rw [Ideal.ofBits_zero_f32, zero_add]
  rfl

/-! ## The results as whole arrays -/

theorem weights_eq : val_main_v26 (F := Ideal) a0 a1 a2 a3 a4 a5 a6 a7 = weightsArr a0 a1 a2 a3 a4 a5 a6 a7 := by
  funext i
  obtain ⟨b, t, z, rfl⟩ : ∃ (b : Fin 32) (t : Fin 2048) (z : Fin 1), i = ix3 b t z := ⟨i 0, i 1, i 2, eq_ix3 i⟩
  exact weight_at a0 a1 a2 a3 a4 a5 a6 a7 b t z

theorem context_eq : val_main_v29 (F := Ideal) a0 a1 a2 a3 a4 a5 a6 a7 = contextArr a0 a1 a2 a3 a4 a5 a6 a7 := by
  funext i
  obtain ⟨b, d, rfl⟩ : ∃ (b : Fin 32) (d : Fin 512), i = ix2 b d := ⟨i 0, i 1, eq_ix2 i⟩
  exact context_at a0 a1 a2 a3 a4 a5 a6 a7 b d

end Cert.ReferenceIdeal.RefValue

end
-- ==== Proof.lean ====
/-
  The kernel computes additive attention, one sequence per grid point; the reference computes it for all 32 sequences at
  once.  On the extended reals both are the same function of the arguments.

  For each sequence b the features f (2048 rows of 512), the state h (512) and the shared parameters give
      logit t = (∑ u, tanh ((∑ k, f t k · Wk k u) + Wb u + ((∑ k, h k · Uk k u) + Ub u)) · Vk u) + Vb,
  the attention weights are the softmax of the logits over t (the exponential of each logit less the largest, over the sum
  of those exponentials) and the context is ∑ t, weight t · f t d.  The kernel's roundings to the narrower format before
  its matrix products are the identity here; its matrix products into a zero accumulator, the reference's contractions,
  the kernel's reductions down the rows and the reference's reductions over the sequence axis are the same finite sums
  and the same fold of max, term by term in the same order; the reference's extra "larger of −∞ and the maximum" changes
  nothing.  No sum is regrouped, so nothing needs the inputs to be finite.  The kernel's blocks (b, ·, ·) tile its two result
  arrays, and its last line only views the context [32, 1, 512] as [32, 512].
  The ideal pass rewrote nothing, so the idealized kernel is the kernel's own text read on the extended reals.
-/
import proofs.«170894_j31619549233446_2_alg».proof.Defs
import proofs.«170894_j31619549233446_2_alg».proof.Proof.Gen.Kernel
import proofs.«170894_j31619549233446_2_alg».proof.Proof.Gen.Kernel.Skeleton
import proofs.«170894_j31619549233446_2_alg».proof.Proof.Gen.Kernel.Launch
import proofs.«170894_j31619549233446_2_alg».proof.Proof.Gen.Kernel.Points
import proofs.«170894_j31619549233446_2_alg».proof.Proof.Gen.Kernel.Frame
import proofs.«170894_j31619549233446_2_alg».proof.Proof.Gen.KernelIdeal
import proofs.«170894_j31619549233446_2_alg».proof.Proof.Gen.KernelIdeal.Skeleton
import proofs.«170894_j31619549233446_2_alg».proof.Proof.Gen.KernelIdeal.Launch
import proofs.«170894_j31619549233446_2_alg».proof.Proof.Gen.KernelIdeal.Points
import proofs.«170894_j31619549233446_2_alg».proof.Proof.Gen.KernelIdeal.Frame
import proofs.«170894_j31619549233446_2_alg».proof.Proof.Gen.ReferenceIdeal
import proofs.«170894_j31619549233446_2_alg».proof.Proof.Gen.Pre_finite_inputs
import proofs.«170894_j31619549233446_2_alg».proof.Proof.Gen.ReferenceIdeal.Run
import proofs.«170894_j31619549233446_2_alg».proof.Proof.Gen.ReferenceIdeal.Read
import proofs.«170894_j31619549233446_2_alg».proof.Proof.KernelValue
import proofs.«170894_j31619549233446_2_alg».proof.Proof.RefRead
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the two results dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Run from memories that agree on the arguments, the two programs end with the same context and the same weights: the
    specification's whole arrays of the arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.KValue.contextOf m c, fun c => Cert.KernelIdeal.KValue.weightsOf m c,
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · obtain ⟨h0, h1, h2, h3, h4, h5, h6, h7⟩ := hagree c
    rw [(h c).1, Cert.ReferenceIdeal.Read.val_main_v29_eq, Cert.ReferenceIdeal.RefValue.context_eq, h0, h1, h2, h3, h4, h5, h6, h7]
    rfl
  · obtain ⟨h0, h1, h2, h3, h4, h5, h6, h7⟩ := hagree c
    rw [(h c).2.1, Cert.ReferenceIdeal.Read.val_main_v26_eq, Cert.ReferenceIdeal.RefValue.weights_eq, h0, h1, h2, h3, h4, h5, h6, h7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
